-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x1024 : Shape := ⟨3, ![8, 8192, 1024]⟩
abbrev S2048x1024 : Shape := ⟨2, ![2048, 1024]⟩
abbrev S2048 : Shape := ⟨1, ![2048]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8x8192x1024 .f32) (main_arg1 : FVec F S2048x1024 .f32) (main_arg2 : FVec F S2048 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8x8192x1024 : Shape := ⟨3, ![8, 8192, 1024]⟩
abbrev S2048x1024 : Shape := ⟨2, ![2048, 1024]⟩
abbrev S2048 : Shape := ⟨1, ![2048]⟩
abbrev S65536x1024 : Shape := ⟨2, ![65536, 1024]⟩
abbrev S65536x2048 : Shape := ⟨2, ![65536, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S2048x1 : Shape := ⟨2, ![2048, 1]⟩
abbrev S1x2048 : Shape := ⟨2, ![1, 2048]⟩
abbrev S8x8192x2048 : Shape := ⟨3, ![8, 8192, 2048]⟩

abbrev nBuf : Space → Nat
  | .hbm => 6
  | .vmem => 6
  | .smem => 0
  | _ => 0

abbrev bufTy : (tb : Table) → Fin (tcTables nBuf tb) → BufTy
  | .hbm, ⟨0, _⟩ => ⟨S8x8192x1024, .f32⟩
  | .hbm, ⟨1, _⟩ => ⟨S2048x1024, .f32⟩
  | .hbm, ⟨2, _⟩ => ⟨S2048, .f32⟩
  | .hbm, ⟨3, _⟩ => ⟨S65536x1024, .f32⟩
  | .hbm, ⟨4, _⟩ => ⟨S65536x2048, .f32⟩
  | .hbm, ⟨5, _⟩ => ⟨S8x8192x2048, .f32⟩
  | .local _ .vmem, ⟨0, _⟩ => ⟨S512x1024, .f32⟩
  | .local _ .vmem, ⟨1, _⟩ => ⟨S512x1024, .f32⟩
  | .local _ .vmem, ⟨2, _⟩ => ⟨S2048x1024, .f32⟩
  | .local _ .vmem, ⟨3, _⟩ => ⟨S2048, .f32⟩
  | .local _ .vmem, ⟨4, _⟩ => ⟨S512x2048, .f32⟩
  | .local _ .vmem, ⟨5, _⟩ => ⟨S512x2048, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x8192x1024_S65536x1024 : S8x8192x1024.ShapeCasts S65536x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  broadcasts_S2048x1_S2048x1024 : S2048x1.Broadcasts S2048x1024
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  shapeCasts_S65536x2048_S8x8192x2048 : S65536x2048.ShapeCasts S8x8192x2048
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .f32 = 32 ∨ (Rect.block (s := S2048x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S65536x2048.size a
  hwx0_3 : ∀ i : grid0.Coords, EltTy.bits .f32 = 32 ∨ (Rect.block (s := S65536x2048) S512x2048.size (cc0_transform_3 i) (hinb0_3 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8192x1024 : Shape := ⟨3, ![8, 8192, 1024]⟩
abbrev S2048x1024 : Shape := ⟨2, ![2048, 1024]⟩
abbrev S2048 : Shape := ⟨1, ![2048]⟩
abbrev S_ : Shape := ⟨0, ![]⟩
abbrev S8x8192 : Shape := ⟨2, ![8, 8192]⟩
abbrev S8x8192x1 : Shape := ⟨3, ![8, 8192, 1]⟩
abbrev S2048x1 : Shape := ⟨2, ![2048, 1]⟩
abbrev S8x8192x2048 : Shape := ⟨3, ![8, 8192, 2048]⟩
abbrev S1x1x2048 : Shape := ⟨3, ![1, 1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S2048x1024, .f32⟩
  | .hbm, ⟨2, _⟩ => ⟨S2048, .f32⟩
  | .hbm, ⟨3, _⟩ => ⟨S8x8192x1024, .f32⟩
  | .hbm, ⟨4, _⟩ => ⟨S_, .f32⟩
  | .hbm, ⟨5, _⟩ => ⟨S8x8192, .f32⟩
  | .hbm, ⟨6, _⟩ => ⟨S8x8192x1, .f32⟩
  | .hbm, ⟨7, _⟩ => ⟨S_, .f32⟩
  | .hbm, ⟨8, _⟩ => ⟨S8x8192x1, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S8x8192x1024, .f32⟩
  | .hbm, ⟨14, _⟩ => ⟨S8x8192x1024, .f32⟩
  | .hbm, ⟨15, _⟩ => ⟨S8x8192x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x8192x1024, .f32⟩
  | .hbm, ⟨20, _⟩ => ⟨S8x8192x1024, .f32⟩
  | .hbm, ⟨21, _⟩ => ⟨S_, .f32⟩
  | .hbm, ⟨22, _⟩ => ⟨S8x8192x1024, .f32⟩
  | .hbm, ⟨23, _⟩ => ⟨S8x8192x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S8x8192x2048, .f32⟩
  | .hbm, ⟨54, _⟩ => ⟨S1x1x2048, .f32⟩
  | .hbm, ⟨55, _⟩ => ⟨S8x8192x2048, .f32⟩
  | .hbm, ⟨56, _⟩ => ⟨S8x8192x2048, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_cst_8 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩

abbrev nD : Nat := 1
abbrev τ : Topo := Topo.v7x

variable {F : FTy → Type} [FloatOps F]

class Facts₀ : Prop where
  reducesTo_S8x8192x1024_S8x8192_d2 : S8x8192x1024.ReducesTo [2] S8x8192
  h_S_ : 0 < S_.numel
  bcast_S8x8192_S8x8192x1_0_1 : S8x8192.BroadcastsInDim S8x8192x1 (![0, 1] : Fin 2 → Fin S8x8192x1.rank)
  bcast_S_S8x8192x1 : S_.BroadcastsInDim S8x8192x1 (![] : Fin 0 → Fin S8x8192x1.rank)
  bcast_S8x8192x1_S8x8192x1024_0_1_2 : S8x8192x1.BroadcastsInDim S8x8192x1024 (![0, 1, 2] : Fin 3 → Fin S8x8192x1024.rank)
  bcast_S_S8x8192x1024 : S_.BroadcastsInDim S8x8192x1024 (![] : Fin 0 → Fin S8x8192x1024.rank)
  reducesTo_S2048x1024_S2048_d1 : S2048x1024.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bcast_S_S2048x1024 : S_.BroadcastsInDim S2048x1024 (![] : Fin 0 → Fin S2048x1024.rank)
  bcast_S2048_S1x1x2048_2 : S2048.BroadcastsInDim S1x1x2048 (![2] : Fin 1 → Fin S1x1x2048.rank)
  bcast_S1x1x2048_S8x8192x2048_0_1_2 : S1x1x2048.BroadcastsInDim S8x8192x2048 (![0, 1, 2] : Fin 3 → Fin S8x8192x2048.rank)
  dot_S8x8192x1024_S2048x1024_S8x8192x2048_2_1_01_0_n_n_wf : DotDims.WF S8x8192x1024 S2048x1024 S8x8192x2048 [2] [1] [0, 1] [0] [] []

variable [Facts₀]

def dot_S8x8192x1024_S2048x1024_S8x8192x2048_2_1_01_0_n_n : DotDims S8x8192x1024 S2048x1024 S8x8192x2048 where
  lhsContracting := [2]
  rhsContracting := [1]
  lhsNonContracting := [0, 1]
  rhsNonContracting := [0]
  lhsBatch := []
  rhsBatch := []
  wf := dot_S8x8192x1024_S2048x1024_S8x8192x2048_2_1_01_0_n_n_wf

class Facts : Prop extends Facts₀ where

variable [Facts]
-- ==== Proof.FakeQuantSpec.lean ====
/-
  Per-row symmetric int8 quantize–dequantize and the linear layer over it, on the extended reals.

  A row `r` of `n` entries has the scale `s = max (A / 127) ε`, where `A` is the largest magnitude in the row (the
  fold of `max` over `|r k| = max (r k) (-(r k))` from `-∞`) and `ε` the float nearest `1e-8`; its entry `k` is sent
  to `clamp (round (r k / s)) · s`, the rounding to the nearest integer with ties to even, the clamp to
  `[-127, 127]`. The layer's output for an activation row `ra`, a weight row `rb` and a bias entry `c` is the sum over
  `k` of the products of the two rows' quantized entries, plus `c`.

  The straight-through form `x + (q - x)`: on the extended reals it is `q` whenever `x` is a real number, whatever
  `q` is, infinite or not (`add_sub_self_real`); it is what makes the reference's rows the kernel's when the inputs
  are finite.
-/
import Idealize.ShloMosaic.PureOps.Ideal
import Idealize.ShloMosaic.PureOps.Ideal.Laws
import Idealize.ShloMosaic.Lib.ValueIdx

noncomputable section

namespace Cert.FakeQuant

open Idealize.ShloMosaic Idealize.ShloMosaic.ValueIdx

/-- The largest magnitude in a row: the fold of `max` over the entries' magnitudes from `-∞` (the word
    `0xFF800000`). -/
def absMax {n : ℕ} (r : Fin n → EReal) : EReal :=
  (Finset.univ : Finset (Fin n)).fold max (Ideal.ofBits .f32 0xFF800000#32) (fun k => max (r k) (-(r k)))

/-- The row's scale: its largest magnitude over `127`, and at least `ε`. -/
def scale {n : ℕ} (r : Fin n → EReal) : EReal :=
  max (Ideal.div (absMax r) (Ideal.ofBits .f32 0x42FE0000#32)) (Ideal.ofBits .f32 0x322BCC77#32)

/-- Entry `k` of the row quantized and dequantized: divided by the scale, rounded to the nearest integer (ties to
    even), clamped to `[-127, 127]`, multiplied by the scale. -/
def qdq {n : ℕ} (r : Fin n → EReal) (k : Fin n) : EReal :=
  min (Ideal.ofBits .f32 0x42FE0000#32) (max (Ideal.ofBits .f32 0xC2FE0000#32)
    (Ideal.liftRound Ideal.roundHalfEven (Ideal.div (r k) (scale r)))) * scale r

/-- One output entry of the layer: the quantized activation row against the quantized weight row, plus the bias. -/
def lin {n : ℕ} (ra rb : Fin n → EReal) (c : EReal) : EReal := (∑ k : Fin n, qdq ra k * qdq rb k) + c

/-- THE RESULT as one function of the three argument arrays: entry `(p, r, o)` of the `[8, 8192, 2048]` output is the
    layer's entry for row `(p, r, ·)` of the activations, row `o` of the weights and entry `o` of the bias. -/
def G (x : (⟨3, ![8, 8192, 1024]⟩ : Shape).Idx → EReal) (w : (⟨2, ![2048, 1024]⟩ : Shape).Idx → EReal)
    (b : (⟨1, ![2048]⟩ : Shape).Idx → EReal) : (⟨3, ![8, 8192, 2048]⟩ : Shape).Idx → EReal :=
  fun i => lin (fun k : Fin 1024 => x (ix3 (i 0) (i 1) k)) (fun k : Fin 1024 => w (ix2 (i 2) k)) (b (ix1 (i 2)))

/-- `G` at coordinates. -/
theorem G_ix3 (x : (⟨3, ![8, 8192, 1024]⟩ : Shape).Idx → EReal) (w : (⟨2, ![2048, 1024]⟩ : Shape).Idx → EReal)
    (b : (⟨1, ![2048]⟩ : Shape).Idx → EReal) (p : Fin 8) (r : Fin 8192) (o : Fin 2048) :
    G x w b (ix3 p r o) = lin (fun k : Fin 1024 => x (ix3 p r k)) (fun k : Fin 1024 => w (ix2 o k)) (b (ix1 o)) := rfl

/-- The straight-through form at a real `x`: `x + (q - x) = q` for every extended real `q`. -/
theorem add_sub_self_real (x : ℝ) (q : EReal) : (x : EReal) + (q - (x : EReal)) = q := by
  induction q using EReal.rec with
  | bot => simp
  | top => simp
  | coe y => rw [← EReal.coe_sub, ← EReal.coe_add]; congr 1; ring

/-- The same with the real entry given as a hypothesis. -/
theorem ste_of_real {x q : EReal} (hx : ∃ r : ℝ, x = (r : EReal)) : x + (q - x) = q := by
  obtain ⟨r, rfl⟩ := hx
  exact add_sub_self_real r q

end Cert.FakeQuant

end
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.LibRowQuant.lean ====
/-
  The per-row symmetric int8 quantize–dequantize of an `[a, n]` matrix, as a kernel body computes it with vector
  operations, read at an index; over arbitrary extents, at the ideal values.

  The body takes the row maxima of the magnitudes (a `vector.multi_reduction <maximumf>` over axis 1 from `-∞`), casts
  them to a column `[a, 1]`, divides by `127` and takes the maximum with `ε` (the scale column); broadcasts the column
  over the row, divides, rounds to even, clamps to `[-127, 127]` and multiplies by the broadcast column again.
  `scaleCol_apply`: the scale column at row `p` is `FakeQuant.scale` of row `p`; `qdqMat_apply`: the result at `(p, k)` is
  `FakeQuant.qdq` of row `p` at `k`.
-/
import proofs.«178201_j74517682586279_1_alg».proof.Proof.FakeQuantSpec
import proofs.«178201_j74517682586279_1_alg».proof.Proof.LibRowReads
import proofs.«178201_j74517682586279_1_alg».proof.Proof.LibColumnReads

noncomputable section

namespace Cert.LibRowQuant

open Idealize.ShloMosaic Idealize.ShloMosaic.ValueIdx Cert.FakeQuant

variable {a n : ℕ}

/-- The scale column of an `[a, n]` matrix: per row, the largest magnitude over `127`, at least `ε`. -/
def scaleCol (x : FVec Ideal ⟨2, ![a, n]⟩ .f32) (hred : (⟨2, ![a, n]⟩ : Shape).Reduces [1] (⟨1, ![a]⟩ : Shape))
    (hcast : (⟨1, ![a]⟩ : Shape).ShapeCasts ⟨2, ![a, 1]⟩) (hφ : FKind.Formats .f32)
    (hacc : (0xFF800000#32 : BitVec FTy.f32.bits) = FKind.maximumf.neutral .f32 hφ) : FVec Ideal ⟨2, ![a, 1]⟩ .f32 :=
  maximumf
    (divf (shapeCast ⟨2, ![a, 1]⟩ (multiReduction .maximumf [1] ⟨1, ![a]⟩ (absf x) 0xFF800000#32 hred hφ hacc) hcast)
      (broadcast ⟨2, ![a, 1]⟩ (Scalar.ofBits .f32 0x42FE0000#32)))
    (broadcast ⟨2, ![a, 1]⟩ (Scalar.ofBits .f32 0x322BCC77#32))

/-- The matrix quantized and dequantized row by row. -/
def qdqMat (x : FVec Ideal ⟨2, ![a, n]⟩ .f32) (hred : (⟨2, ![a, n]⟩ : Shape).Reduces [1] (⟨1, ![a]⟩ : Shape))
    (hcast : (⟨1, ![a]⟩ : Shape).ShapeCasts ⟨2, ![a, 1]⟩) (hφ : FKind.Formats .f32)
    (hacc : (0xFF800000#32 : BitVec FTy.f32.bits) = FKind.maximumf.neutral .f32 hφ) (hbc : (⟨2, ![a, 1]⟩ : Shape).Broadcasts ⟨2, ![a, n]⟩) :
    FVec Ideal ⟨2, ![a, n]⟩ .f32 :=
  mulf
    (minimumf (broadcast ⟨2, ![a, n]⟩ (Scalar.ofBits .f32 0x42FE0000#32))
      (maximumf (broadcast ⟨2, ![a, n]⟩ (Scalar.ofBits .f32 0xC2FE0000#32))
        (roundeven (divf x (broadcastTo ⟨2, ![a, n]⟩ (scaleCol x hred hcast hφ hacc) hbc)))))
    (broadcastTo ⟨2, ![a, n]⟩ (scaleCol x hred hcast hφ hacc) hbc)

/-- The scale column at row `p` is the scale of row `p`. -/
theorem scaleCol_apply (x : FVec Ideal ⟨2, ![a, n]⟩ .f32) (hred : (⟨2, ![a, n]⟩ : Shape).Reduces [1] (⟨1, ![a]⟩ : Shape))
    (hcast : (⟨1, ![a]⟩ : Shape).ShapeCasts ⟨2, ![a, 1]⟩) (hφ : FKind.Formats .f32)
    (hacc : (0xFF800000#32 : BitVec FTy.f32.bits) = FKind.maximumf.neutral .f32 hφ) (p : Fin a) (u : Fin 1) :
    scaleCol x hred hcast hφ hacc (ix2 p u) = scale (fun k : Fin n => x (ix2 p k)) := by
  unfold scaleCol
  simp only [maximumf, divf]
  rw [LibColumnReads.shapeCast_a_a1_apply, LibRowReads.rowMax_apply]
  rfl

/-- The dequantized matrix at `(p, k)` is row `p` quantized and dequantized, at `k`. -/
theorem qdqMat_apply (x : FVec Ideal ⟨2, ![a, n]⟩ .f32) (hred : (⟨2, ![a, n]⟩ : Shape).Reduces [1] (⟨1, ![a]⟩ : Shape))
    (hcast : (⟨1, ![a]⟩ : Shape).ShapeCasts ⟨2, ![a, 1]⟩) (hφ : FKind.Formats .f32)
    (hacc : (0xFF800000#32 : BitVec FTy.f32.bits) = FKind.maximumf.neutral .f32 hφ) (hbc : (⟨2, ![a, 1]⟩ : Shape).Broadcasts ⟨2, ![a, n]⟩)
    (p : Fin a) (k : Fin n) :
    qdqMat x hred hcast hφ hacc hbc (ix2 p k) = qdq (fun k' : Fin n => x (ix2 p k')) k := by
  unfold qdqMat
  simp only [mulf, minimumf, maximumf, roundeven, divf]
  rw [LibColumnReads.broadcastTo_a1_ab_apply, scaleCol_apply]
  rfl

end Cert.LibRowQuant

end
-- ==== Proof.KernelPayload.lean ====
/-
  What the kernel body computes from its three loaded blocks, read at an index.

  The body loads a `[512, 1024]` block of activations, the whole `[2048, 1024]` weight matrix and the `[2048]` bias. It
  quantizes and dequantizes both matrices row by row (LibRowQuant), contracts them over their second axes — the
  product of the activations with the TRANSPOSED weights, a `tpu.matmul` into a zero accumulator, which at the ideal
  values is the plain sum over `k` of the products, the changes of float format being the identity — and adds the bias
  along the rows. So its entry `(p, q)` is `FakeQuant.lin` of row `p` of the block, row `q` of the weights and entry
  `q` of the bias.
-/
import proofs.«178201_j74517682586279_1_alg».proof.Proof.Gen.KernelIdeal.Skeleton
import proofs.«178201_j74517682586279_1_alg».proof.Proof.LibRowQuant
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open Cert.FakeQuant Cert.LibRowQuant

/-- The contraction's dimension numbers: the second axis of each operand contracted, the first kept. -/
abbrev D : DotDims S512x1024 S2048x1024 S512x2048 := dot_S512x1024_S2048x1024_S512x2048_1_1_0_0_n_n

theorem lhs_0 (i : S512x2048.Idx) (c : D.contr.Idx) : (D.lhsIdx i c 0).val = (i 0).val := by
  unfold DotDims.lhsIdx
  rw [dif_neg (show ¬(0 : Fin S512x1024.rank) ∈ D.lhsBatch by decide),
    dif_pos (show (0 : Fin S512x1024.rank) ∈ D.lhsNonContracting by decide)]
  rfl
theorem lhs_1 (i : S512x2048.Idx) (c : D.contr.Idx) : (D.lhsIdx i c 1).val = (c ⟨0, by decide⟩).val :=
  D.lhsIdx_val_of_single rfl i c
theorem rhs_0 (i : S512x2048.Idx) (c : D.contr.Idx) : (D.rhsIdx i c 0).val = (i 1).val := by
  unfold DotDims.rhsIdx
  rw [dif_neg (show ¬(0 : Fin S2048x1024.rank) ∈ D.rhsBatch by decide),
    dif_pos (show (0 : Fin S2048x1024.rank) ∈ D.rhsNonContracting by decide)]
  rfl
theorem rhs_1 (i : S512x2048.Idx) (c : D.contr.Idx) : (D.rhsIdx i c 1).val = (c ⟨0, by decide⟩).val :=
  D.rhsIdx_val_of_single rfl i c

/-- The reductions' format is `f32`, and `-∞`'s word is the maximum's neutral accumulator there. -/
theorem hfmt : FKind.Formats .f32 := .inl rfl
theorem hneg : (0xFF800000#32 : BitVec FTy.f32.bits) = FKind.maximumf.neutral .f32 hfmt := rfl

/-- The product with the transposed right operand into a zero accumulator, at `(p, q)`: the sum over `k` of the left
    operand's row `p` times the right operand's row `q`. -/
theorem matmul_rows_apply (l : FVec Ideal S512x1024 .bf16) (r : FVec Ideal S2048x1024 .bf16) (p : Fin 512) (q : Fin 2048) :
    matmul D none l r (constant S512x2048 .f32 0x00000000#32) (ix2 p q) = ∑ k : Fin 1024, l (ix2 p k) * r (ix2 q k) := by
  simp only [matmul]
  rw [Ideal.matmul_constant_zero_apply, ← Equiv.sum_comp (ValueIdx.contrEquiv1 D 1024 rfl rfl).symm]
  refine Finset.sum_congr rfl fun k _ => ?_
  have hk := ValueIdx.contrEquiv1_symm_val D 1024 rfl rfl k
  have el : D.lhsIdx (ix2 p q) ((ValueIdx.contrEquiv1 D 1024 rfl rfl).symm k) = ix2 p k := funext fun a => Fin.ext (by
    match a with
    | ⟨0, _⟩ => exact lhs_0 _ _
    | ⟨1, _⟩ => exact (lhs_1 _ _).trans hk)
  have er : D.rhsIdx (ix2 p q) ((ValueIdx.contrEquiv1 D 1024 rfl rfl).symm k) = ix2 q k := funext fun a => Fin.ext (by
    match a with
    | ⟨0, _⟩ => exact rhs_0 _ _
    | ⟨1, _⟩ => exact (rhs_1 _ _).trans hk)
  rw [el, er]

/-- The body's result as the operations it is made of: the two dequantized matrices contracted, plus the bias
    broadcast along the rows. -/
theorem pay_eq (x0 : Vec Ideal S512x1024 .f32) (x1 : Vec Ideal S2048x1024 .f32) (x2 : Vec Ideal S2048 .f32) :
    k0_pay1 (F := Ideal) x0 x1 x2
      = addf (matmul D none
          (truncf .bf16 (qdqMat (shapeCast S512x1024 x0 shapeCasts_S512x1024_S512x1024) reduces_S512x1024_S512
            shapeCasts_S512_S512x1 hfmt hneg broadcasts_S512x1_S512x1024) bitsLt_bf16_f32)
          (truncf .bf16 (qdqMat x1 reduces_S2048x1024_S2048 shapeCasts_S2048_S2048x1 hfmt hneg
            broadcasts_S2048x1_S2048x1024) bitsLt_bf16_f32)
          (constant S512x2048 .f32 0x00000000#32))
        (broadcastTo S512x2048 (shapeCast S1x2048 x2 shapeCasts_S2048_S1x2048) broadcasts_S1x2048_S512x2048) := rfl

/-- THE BODY'S RESULT AT `(p, q)`: the layer's entry for row `p` of the activation block, row `q` of the weights and
    entry `q` of the bias. -/
theorem pay_apply (x0 : Vec Ideal S512x1024 .f32) (x1 : Vec Ideal S2048x1024 .f32) (x2 : Vec Ideal S2048 .f32)
    (p : Fin 512) (q : Fin 2048) :
    k0_pay1 (F := Ideal) x0 x1 x2 (ix2 p q)
      = lin (fun k : Fin 1024 => x0 (ix2 p k)) (fun k : Fin 1024 => x1 (ix2 q k)) (x2 (ix1 q)) := by
  rw [pay_eq, addf_apply, matmul_rows_apply, broadcastTo_1b_ab_apply, shapeCast_a_1a_apply]
  unfold lin
  refine congrArg (fun s : EReal => s + x2 (ix1 q)) (Finset.sum_congr rfl fun k _ => ?_)
  rw [truncf_apply, truncf_apply, qdqMat_apply, qdqMat_apply, shapeCast_self]

end Cert.KernelIdeal.Payload

end
-- ==== Proof.KernelValue.lean ====
/-
  The kernel's result array as one function of its argument arrays.

  Grid point `t` of 128 reads rows `512 t … 512 t + 511` of the activations reshaped to `[65536, 1024]`, the whole weight
  matrix and the whole bias, and writes rows `512 t … 512 t + 511` of a `[65536, 2048]` array: entry `(R, o)` of that array
  is the layer's entry for activation row `R`, weight row `o`, bias entry `o` (`rows`). The 128 blocks tile the array,
  so after the run the array is `rows` everywhere. The host reshapes before and after the region: row
  `R = 8192 p + r` of the reshaped activations is row `(p, r, ·)` of the argument, and entry `(p, r, o)` of the result is
  entry `(8192 p + r, o)` of the region's array. So the result is `FakeQuant.G` of the three arguments.
-/
import proofs.«178201_j74517682586279_1_alg».proof.Proof.Gen.KernelIdeal.Frame
import proofs.«178201_j74517682586279_1_alg».proof.Proof.KernelPayload
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.ValueIdx Cert.FakeQuant
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The block index maps over the grid: the activations' and the result's blocks move down the rows with the point,
    the weights' and the bias's stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The activation block at point `t`, at `(p, k)`, is the reshaped activations at row `512 t + p`, column `k`. -/
theorem iblk0_apply (c : Dev nD) (t : Fin cfg0.N) (p : Fin 512) (k : Fin 1024) (I : S65536x1024.Idx)
    (h0 : (I 0).val = t.val * 512 + p.val) (h1 : (I 1).val = k.val) :
    (iblk m c 0 t : Vec Ideal S512x1024 .f32) (ix2 p k) = (V m c main_v0 : S65536x1024.Idx → EReal) I := by
  obtain ⟨e0, e1, -⟩ := idx_facts t
  unfold iblk
  rw [View.read_apply]
  show V m c main_v0 _ = V m c main_v0 _
  refine congrArg (V m c main_v0 : S65536x1024.Idx → EReal) (funext fun a => Fin.ext ?_)
  match a with
  | ⟨0, _⟩ => show win0_0.index t (0 : Fin 2) * 512 + 1 * p.val = (I 0).val; rw [e0, h0]; omega
  | ⟨1, _⟩ => show win0_0.index t (1 : Fin 2) * 1024 + 1 * k.val = (I 1).val; rw [e1, h1]; omega

/-- The weight block at every point is the whole weight matrix. -/
theorem iblk1_apply (c : Dev nD) (t : Fin cfg0.N) (q : Fin 2048) (k : Fin 1024) (I : S2048x1024.Idx)
    (h0 : (I 0).val = q.val) (h1 : (I 1).val = k.val) :
    (iblk m c 1 t : Vec Ideal S2048x1024 .f32) (ix2 q k) = (V m c main_arg1 : S2048x1024.Idx → EReal) I := by
  obtain ⟨-, -, e2, e3, -⟩ := idx_facts t
  unfold iblk
  rw [View.read_apply]
  show V m c main_arg1 _ = V m c main_arg1 _
  refine congrArg (V m c main_arg1 : S2048x1024.Idx → EReal) (funext fun a => Fin.ext ?_)
  match a with
  | ⟨0, _⟩ => show win0_1.index t (0 : Fin 2) * 2048 + 1 * q.val = (I 0).val; rw [e2, h0]; omega
  | ⟨1, _⟩ => show win0_1.index t (1 : Fin 2) * 1024 + 1 * k.val = (I 1).val; rw [e3, h1]; omega

/-- The bias block at every point is the whole bias. -/
theorem iblk2_apply (c : Dev nD) (t : Fin cfg0.N) (q : Fin 2048) (I : S2048.Idx) (h0 : (I 0).val = q.val) :
    (iblk m c 2 t : Vec Ideal S2048 .f32) (ix1 q) = (V m c main_arg2 : S2048.Idx → EReal) I := by
  obtain ⟨-, -, -, -, e4, -⟩ := idx_facts t
  unfold iblk
  rw [View.read_apply]
  show V m c main_arg2 _ = V m c main_arg2 _
  refine congrArg (V m c main_arg2 : S2048.Idx → EReal) (funext fun a => Fin.ext ?_)
  match a with
  | ⟨0, _⟩ => show win0_2.index t (0 : Fin 1) * 2048 + 1 * q.val = (I 0).val; rw [e4, h0]; omega

/-- The region's array as one function of the arrays the region finds: entry `(R, o)` is the layer's entry for row
    `R` of the reshaped activations, row `o` of the weights, entry `o` of the bias. -/
def rows (c : Dev nD) : S65536x2048.Idx → EReal := fun i =>
  lin (fun k : Fin 1024 => (V m c main_v0 : S65536x1024.Idx → EReal) (ix2 (i 0) k))
    (fun k : Fin 1024 => (V m c main_arg1 : S2048x1024.Idx → EReal) (ix2 (i 1) k))
    ((V m c main_arg2 : S2048.Idx → EReal) (ix1 (i 1)))

/-- WHAT POINT `t` WRITES BACK is block `t` of `rows`. -/
theorem flushed_eq (c : Dev nD) (t : Fin cfg0.N) :
    (dats m 0 c).flushed 3 t = ((cfg0.win 3).blk t).view.read (Elt Ideal) (rows m c) := by
  show (cfg0.win 3).cut (grid0.coords t) ((dats m 0 c).after 3 t) = _
  rw [after0_3]
  unfold out0_3
  rw [View.canon_unit_zero hz2]
  simp only [View.ld_unit_zero (S := S512x1024) hz2, View.ld_unit_zero (S := S2048x1024) hz2,
    View.ld_unit_zero (S := S2048) hz1]
  obtain ⟨-, -, -, -, -, e5, e6⟩ := idx_facts t
  funext j
  obtain ⟨p, q, rfl⟩ : ∃ (p : Fin 512) (q : Fin 2048), j = ix2 p q := ⟨j 0, j 1, eq_ix2 j⟩
  show k0_pay1 (F := Ideal) (iblk m c 0 t) (iblk m c 1 t) (iblk m c 2 t) (ix2 p q)
    = rows m c (((cfg0.win 3).blk t).view.emb (ix2 p q))
  refine (Payload.pay_apply (iblk m c 0 t) (iblk m c 1 t) (iblk m c 2 t) p q).trans ?_
  unfold rows
  have h0 : ((((cfg0.win 3).blk t).view.emb (ix2 p q)) 0).val = t.val * 512 + p.val := by
    show win0_3.index t (0 : Fin 2) * 512 + 1 * p.val = _
    rw [e5]; omega
  have h1 : ((((cfg0.win 3).blk t).view.emb (ix2 p q)) 1).val = q.val := by
    show win0_3.index t (1 : Fin 2) * 2048 + 1 * q.val = _
    rw [e6]; omega
  refine congr (congr (congrArg lin (funext fun k => ?_)) (funext fun k => ?_)) ?_
  · exact iblk0_apply m c t p k _ h0 rfl
  · exact iblk1_apply m c t q k _ h1 rfl
  · exact iblk2_apply m c t q _ h1

/-- An index of the region's array is in point `t`'s block iff each coordinate is in the block's range on its axis. -/
theorem mem_blk (t : Fin cfg0.N) (i : S65536x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v1).slice (win0_3.rect t)).set ↔ _
  rw [View.set_slice_whole, Rect.mem_set_unit]
  exact Iff.rfl

/-- Every index of the region's array is in the block of the point its row falls in: row `R` in point `R / 512`'s. -/
theorem cover (i : S65536x2048.Idx) :
    ∃ t : Fin cfg0.N, (cfg0.win 3).flush t = true ∧ i ∈ ((cfg0.win 3).blk t).view.set := by
  have hN : cfg0.N = 128 := N_0
  have hi0 : (i 0).val < 65536 := (i 0).isLt
  have hi1 : (i 1).val < 2048 := (i 1).isLt
  have ht : (i 0).val / 512 < cfg0.N := by rw [hN]; omega
  obtain ⟨-, -, -, -, -, e5, e6⟩ := idx_facts ⟨(i 0).val / 512, ht⟩
  refine ⟨⟨(i 0).val / 512, ht⟩, flush0_3 _, ?_⟩
  rw [mem_blk]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e5]; show (i 0).val / 512 * 512 ≤ (i 0).val ∧ (i 0).val < (i 0).val / 512 * 512 + 512; omega
  | ⟨1, _⟩ =>
    show win0_3.index ⟨(i 0).val / 512, ht⟩ (1 : Fin 2) * 2048 ≤ (i 1).val
      ∧ (i 1).val < win0_3.index ⟨(i 0).val / 512, ht⟩ (1 : Fin 2) * 2048 + 2048
    rw [e6]; omega

/-- THE REGION'S ARRAY after the run is `rows`. -/
theorem final3 (c : Dev nD) : (dats m 0 c).arrAt 3 cfg0.N = rows m c :=
  (dats m 0 c).arrAt_eq_of_cover 3 (rows m c) (fun t _ => flushed_eq m c t) cover

/-- The activations as the region finds them: the argument reshaped to `[65536, 1024]`. -/
theorem V_main_v0 (c : Dev nD) : (V m c main_v0 : S65536x1024.Idx → EReal)
    = shapeCast S65536x1024 (m ((c : Thread nD τ).loc main_arg0) : S8x8192x1024.Idx → EReal) shapeCasts_S8x8192x1024_S65536x1024 := by
  show StableHlo.after hostOps0 (fun b => m (c, b)) (Proc.devRef .tc main_v0) = _
  after_results
  rfl

/-- Row `8192 p + r` of the reshaped activations is row `(p, r, ·)` of the argument. -/
theorem V_main_v0_apply (c : Dev nD) (p : Fin 8) (r : Fin 8192) (k : Fin 1024) (I : S65536x1024.Idx)
    (h0 : (I 0).val = p.val * 8192 + r.val) (h1 : (I 1).val = k.val) :
    (V m c main_v0 : S65536x1024.Idx → EReal) I
      = (m ((c : Thread nD τ).loc main_arg0) : S8x8192x1024.Idx → EReal) (ix3 p r k) := by
  rw [V_main_v0]
  refine shapeCast_apply _ _ I (ix3 p r k) ?_
  rw [Shape.rowMajor_val_three, Shape.rowMajor_val_two]
  show (p.val * 8192 + r.val) * 1024 + k.val = (I 0).val * 1024 + (I 1).val
  rw [h0, h1]

/-- The result buffer after the host's last line: the region's array reshaped to `[8, 8192, 2048]`. -/
theorem tail_v2 (c : Dev nD) :
    Pipeline.afterTail₀ cfgs (dats m) 0 (V0 m) [hostOps1] c main_v2
      = shapeCast S8x8192x2048 (rows m c) shapeCasts_S65536x2048_S8x8192x2048 := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v1) = rows m c :=
    (Pipeline.withArrays_arr spec0 launch0.win.arr_inj c _ _ 3).trans (final3 m c)
  rw [e]
  rfl

/-- THE KERNEL'S RUN, READ: every weakly fair execution terminates with the result buffer at the region's array
    reshaped, and the three arguments as launched. -/
theorem run_rows : θ_run defs (onTc (τ := τ) (main (F := Ideal))) ⟨m, fun _ => 0, ρ⟩ fun r => ∀ c : Dev nD,
      r.2.mem ((c.tc : Thread nD τ).loc main_v2) = shapeCast S8x8192x2048 (rows m c) shapeCasts_S65536x2048_S8x8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_v2 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

/-- The region's array reshaped is `G` of the three arguments: entry `(p, r, o)` is entry `(8192 p + r, o)` of the
    region's array, whose activation row is row `(p, r, ·)` of the argument. -/
theorem result_eq (c : Dev nD) :
    shapeCast S8x8192x2048 (rows m c) shapeCasts_S65536x2048_S8x8192x2048
      = G (m ((c.tc : Thread nD τ).loc main_arg0)) (m ((c.tc : Thread nD τ).loc main_arg1))
          (m ((c.tc : Thread nD τ).loc main_arg2)) := by
  funext i
  obtain ⟨p, r, o, rfl⟩ : ∃ (p : Fin 8) (r : Fin 8192) (o : Fin 2048), i = ix3 p r o := ⟨i 0, i 1, i 2, eq_ix3 i⟩
  have hR : p.val * 8192 + r.val < 65536 := by have := p.isLt; have := r.isLt; omega
  rw [G_ix3]
  refine (shapeCast_apply (rows m c) shapeCasts_S65536x2048_S8x8192x2048 (ix3 p r o)
    (ix2 (⟨p.val * 8192 + r.val, hR⟩ : Fin 65536) o) ?_).trans ?_
  · rw [Shape.rowMajor_val_three, Shape.rowMajor_val_two]
    rfl
  · unfold rows
    refine congr (congr (congrArg lin (funext fun k => ?_)) (funext fun k => ?_)) ?_
    · exact V_main_v0_apply m c p r k _ rfl rfl
    · exact congrFun (V_main_arg1 m c) (ix2 o k)
    · exact congrFun (V_main_arg2 m c) (ix1 o)

/-- THE KERNEL'S RUN with the result at `G` of the arguments. -/
theorem run : θ_run defs (onTc (τ := τ) (main (F := Ideal))) ⟨m, fun _ => 0, ρ⟩ fun r => ∀ c : Dev nD,
      r.2.mem ((c.tc : Thread nD τ).loc main_v2)
        = G (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq m c), (h c).2⟩) (run_rows m ρ)

end Cert.KernelIdeal.KValue

end
-- ==== Proof.LibLastAxisMax.lean ====
/-
  The host's one-operand reduce with a maximum body over the LAST axis, read at an index given by coordinates, over
  arbitrary extents and at the ideal values:
  • of an `[a, b, n]` array at `(p, q)`, and
  • of an `[a, n]` matrix at `p`:
  the fold of `max` along that axis from the initial value. (The middle-axis form is in LibColumnReads; the kernel-side
  row maximum in LibRowReads.)
-/
import Idealize.ShloMosaic.Lib.ValueIdx
import Idealize.ShloMosaic.PureOps.Ideal.Laws

namespace Cert.LibLastAxisMax

open Idealize.ShloMosaic Idealize.ShloMosaic.ValueIdx

/-- Position `(p, q)` of an `[a, b, n]` array with last coordinate `k` put back is `(p, q, k)`. -/
theorem lift_last3 {a b n : ℕ} (h : (⟨3, ![a, b, n]⟩ : Shape).Reduces [2] (⟨2, ![a, b]⟩ : Shape)) (p : Fin a) (q : Fin b)
    (k : Fin n) : h.lift (ix2 p q) k = ix3 p q k := by
  funext c; apply Fin.ext
  fin_cases c <;> rfl

/-- Row `p` of an `[a, n]` matrix with column `k` put back is `(p, k)`. -/
theorem lift_last2 {a n : ℕ} (h : (⟨2, ![a, n]⟩ : Shape).Reduces [1] (⟨1, ![a]⟩ : Shape)) (p : Fin a) (k : Fin n) :
    h.lift (ix1 p) k = ix2 p k := by
  funext c; apply Fin.ext
  fin_cases c <;> rfl

/-- The host's reduce with a maximum body over the last axis of an `[a, b, n]` array, at `(p, q)`, is the fold of
    `max` over that axis from the initial value. -/
theorem hostLastMax3_apply {φ : FTy} {a b n : ℕ} {u : Shape} (x : FVec Ideal ⟨3, ![a, b, n]⟩ φ) (init : FVec Ideal u φ)
    (h' : (⟨3, ![a, b, n]⟩ : Shape).ReducesTo [2] (⟨2, ![a, b]⟩ : Shape))
    (h : (⟨3, ![a, b, n]⟩ : Shape).Reduces [2] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p q k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last3 h p q k))

/-- The host's reduce with a maximum body over the last axis of an `[a, n]` matrix, at `p`, is the fold of `max`
    along row `p` from the initial value. -/
theorem hostLastMax2_apply {φ : FTy} {a n : ℕ} {u : Shape} (x : FVec Ideal ⟨2, ![a, n]⟩ φ) (init : FVec Ideal u φ)
    (h' : (⟨2, ![a, n]⟩ : Shape).ReducesTo [1] (⟨1, ![a]⟩ : Shape))
    (h : (⟨2, ![a, n]⟩ : Shape).Reduces [1] (⟨1, ![a]⟩ : Shape)) (hu : 0 < u.numel) (p : Fin a) :
    Host.reduce (FloatOps.maximumf (F := Ideal) (φ := φ)) x init h' hu (ix1 p)
      = (Finset.univ : Finset (Fin n)).fold max (init (Shape.Idx.first hu)) (fun k => x (ix2 p k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last2 h p k))

end Cert.LibLastAxisMax
-- ==== Proof.RefValue.lean ====
/-
  The reference's result, read index by index, is the quantized linear layer `FakeQuant.G` of its three arguments —
  when the activations and the weights are finite.

  The reference computes each row's scale from the row's largest magnitude (a host reduce with a maximum body over the
  last axis), quantizes and dequantizes entry by entry, and then passes `x + (q - x)` on instead of `q`: for a real
  `x` that is `q` (`FakeQuant.ste_of_real`). The contraction over the last axes of the two dequantized arrays is the
  sum over `k` of the products of their rows' entries; the bias is broadcast along the first two axes.
-/
import proofs.«178201_j74517682586279_1_alg».proof.Proof.Gen.ReferenceIdeal.Read
import proofs.«178201_j74517682586279_1_alg».proof.Proof.FakeQuantSpec
import proofs.«178201_j74517682586279_1_alg».proof.Proof.LibLastAxisMax

noncomputable section

namespace Cert.ReferenceIdeal.RefValue

open Cert.ReferenceIdeal Cert.ReferenceIdeal.Gen Cert.ReferenceIdeal.Read Idealize.ShloMosaic Idealize.ShloMosaic.ValueIdx
open Cert.FakeQuant

variable (x0 : (⟨S8x8192x1024, .f32⟩ : BufTy).Contents (Elt Ideal)) (x1 : (⟨S2048x1024, .f32⟩ : BufTy).Contents (Elt Ideal))
  (x2 : (⟨S2048, .f32⟩ : BufTy).Contents (Elt Ideal))

/-! ## The activations -/

/-- The scale column of the activations at `(p, r)` is the scale of row `(p, r, ·)`. -/
theorem scale_x (p : Fin 8) (r : Fin 8192) :
    val_main_v6 (F := Ideal) x0 (ix3 p r (0 : Fin 1)) = scale (fun k : Fin 1024 => x0 (ix3 p r k)) := by
  have e2 : idx_main_v2 (ix3 p r (0 : Fin 1)) = ix2 p r := funext fun a => by
    match a with
    | ⟨0, _⟩ => rfl
    | ⟨1, _⟩ => rfl
  rw [val_main_v6_apply, val_main_v4_apply, val_main_v2_apply, val_main_v3_apply, val_main_v5_apply, e2]
  unfold val_main_v1
  rw [LibLastAxisMax.hostLastMax3_apply (val_main_v0 (F := Ideal) x0) (val_main_cst (F := Ideal))
    reducesTo_S8x8192x1024_S8x8192_d2 (by decide) h_S_ p r]
  rfl

/-- The dequantized activations before the straight-through step, at `(p, r, k)`. -/
theorem qdq_x (p : Fin 8) (r : Fin 8192) (k : Fin 1024) :
    val_main_v12 (F := Ideal) x0 (ix3 p r k) = qdq (fun k' : Fin 1024 => x0 (ix3 p r k')) k := by
  have e7 : idx_main_v7 (ix3 p r k) = ix3 p r (0 : Fin 1) := funext fun a => by
    match a with
    | ⟨0, _⟩ => rfl
    | ⟨1, _⟩ => rfl
    | ⟨2, _⟩ => rfl
  have e11 : idx_main_v11 (ix3 p r k) = ix3 p r (0 : Fin 1) := funext fun a => by
    match a with
    | ⟨0, _⟩ => rfl
    | ⟨1, _⟩ => rfl
    | ⟨2, _⟩ => rfl
  rw [val_main_v12_apply, val_main_v10_apply, val_main_v11_apply, val_main_call1_v4_apply, val_main_call1_v2_apply,
    val_main_call1_v1_apply, val_main_v9_apply, val_main_v8_apply, val_main_v7_apply, e7, e11, scale_x]
  rfl

/-- The straight-through step leaves the dequantized entry, the activation being real. -/
theorem ste_x (hx0 : ∀ i, ∃ r : ℝ, x0 i = (r : EReal)) (p : Fin 8) (r : Fin 8192) (k : Fin 1024) :
    val_main_v14 (F := Ideal) x0 (ix3 p r k) = qdq (fun k' : Fin 1024 => x0 (ix3 p r k')) k := by
  rw [val_main_v14_apply, val_main_v13_apply, qdq_x]
  exact ste_of_real (hx0 _)

/-! ## The weights -/

/-- The scale column of the weights at `o` is the scale of row `o`. -/
theorem scale_w (o : Fin 2048) :
    val_main_v21 (F := Ideal) x1 (ix2 o (0 : Fin 1)) = scale (fun k : Fin 1024 => x1 (ix2 o k)) := by
  have e17 : idx_main_v17 (ix2 o (0 : Fin 1)) = ix1 o := funext fun a => by
    match a with
    | ⟨0, _⟩ => rfl
  rw [val_main_v21_apply, val_main_v19_apply, val_main_v17_apply, val_main_v18_apply, val_main_v20_apply, e17]
  unfold val_main_v16
  rw [LibLastAxisMax.hostLastMax2_apply (val_main_v15 (F := Ideal) x1) (val_main_cst_4 (F := Ideal))
    reducesTo_S2048x1024_S2048_d1 (by decide) h_S_ o]
  rfl

/-- The dequantized weights before the straight-through step, at `(o, k)`. -/
theorem qdq_w (o : Fin 2048) (k : Fin 1024) :
    val_main_v27 (F := Ideal) x1 (ix2 o k) = qdq (fun k' : Fin 1024 => x1 (ix2 o k')) k := by
  have e22 : idx_main_v22 (ix2 o k) = ix2 o (0 : Fin 1) := funext fun a => by
    match a with
    | ⟨0, _⟩ => rfl
    | ⟨1, _⟩ => rfl
  have e26 : idx_main_v26 (ix2 o k) = ix2 o (0 : Fin 1) := funext fun a => by
    match a with
    | ⟨0, _⟩ => rfl
    | ⟨1, _⟩ => rfl
  rw [val_main_v27_apply, val_main_v25_apply, val_main_v26_apply, val_main_call3_v4_apply, val_main_call3_v2_apply,
    val_main_call3_v1_apply, val_main_v24_apply, val_main_v23_apply, val_main_v22_apply, e22, e26, scale_w]
  rfl

/-- The straight-through step leaves the dequantized entry, the weight being real. -/
theorem ste_w (hx1 : ∀ i, ∃ r : ℝ, x1 i = (r : EReal)) (o : Fin 2048) (k : Fin 1024) :
    val_main_v29 (F := Ideal) x1 (ix2 o k) = qdq (fun k' : Fin 1024 => x1 (ix2 o k')) k := by
  rw [val_main_v29_apply, val_main_v28_apply, qdq_w]
  exact ste_of_real (hx1 _)

/-! ## The result -/

/-- The reference's result at `(p, r, o)`: the layer's entry for activation row `(p, r, ·)`, weight row `o`, bias
    entry `o`. -/
theorem result_apply (hx0 : ∀ i, ∃ r : ℝ, x0 i = (r : EReal)) (hx1 : ∀ i, ∃ r : ℝ, x1 i = (r : EReal))
    (p : Fin 8) (r : Fin 8192) (o : Fin 2048) :
    val_main_v33 (F := Ideal) x0 x1 x2 (ix3 p r o)
      = lin (fun k : Fin 1024 => x0 (ix3 p r k)) (fun k : Fin 1024 => x1 (ix2 o k)) (x2 (ix1 o)) := by
  have el : ∀ k : Fin 1024, lidx_main_v30 (ix3 p r o) k = ix3 p r k := fun k => funext fun a => by
    match a with
    | ⟨0, _⟩ => rfl
    | ⟨1, _⟩ => rfl
    | ⟨2, _⟩ => rfl
  have er : ∀ k : Fin 1024, ridx_main_v30 (ix3 p r o) k = ix2 o k := fun k => funext fun a => by
    match a with
    | ⟨0, _⟩ => rfl
    | ⟨1, _⟩ => rfl
  have eb : idx_main_v31 (idx_main_v32 (ix3 p r o)) = ix1 o := funext fun a => by
    match a with
    | ⟨0, _⟩ => rfl
  rw [val_main_v33_apply, val_main_v30_apply, val_main_v32_apply, val_main_v31_apply, eb]
  show (∑ k : Fin 1024, _) + _ = (∑ k : Fin 1024, _) + _
  congr 1
  exact Finset.sum_congr rfl fun k _ => by rw [el, er, ste_x x0 hx0, ste_w x1 hx1]

/-- THE REFERENCE IS `G`: its result array is the quantized linear layer of its arguments, the activations and the
    weights being finite. -/
theorem result_eq (hx0 : ∀ i, ∃ r : ℝ, x0 i = (r : EReal)) (hx1 : ∀ i, ∃ r : ℝ, x1 i = (r : EReal)) :
    val_main_v33 (F := Ideal) x0 x1 x2 = G x0 x1 x2 := by
  funext i
  obtain ⟨p, r, o, rfl⟩ : ∃ (p : Fin 8) (r : Fin 8192) (o : Fin 2048), i = ix3 p r o := ⟨i 0, i 1, i 2, eq_ix3 i⟩
  rw [G_ix3]
  exact result_apply x0 x1 x2 hx0 hx1 p r o

end Cert.ReferenceIdeal.RefValue

end
-- ==== Proof.FiniteInputs.lean ====
/-
  The precondition read back: when `finite_inputs` is all ones, every activation and every weight is a real number.

  The predicate is the conjunction of three `jnp.all(|a| < +∞)`, one per argument; each `jnp.all` is a reduce by `and`
  from 1 over the comparisons, so it is 1 only if every comparison is. An extended real whose magnitude
  `max x (-x)` is strictly below `+∞` (the word `0x7F800000`) is neither infinity, hence a real.
-/
import proofs.«178201_j74517682586279_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Finite

open Cert.Pre_finite_inputs Idealize.ShloMosaic Idealize.ShloMosaic.ValueIdx

instance : Subsingleton S_.Idx := ⟨fun a b => funext fun d => d.elim0⟩

/-- The word `0x7F800000` is `+∞`. -/
theorem ofBits_inf : Ideal.ofBits .f32 0x7F800000#32 = ⊤ := by simp [Ideal.ofBits, Ideal.ieee]

/-- An extended real whose magnitude compares below `+∞` is a real number. -/
theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  have h' : max x (-x) < ⊤ := by
    have e : BitVec.ofBool (decide (max x (-x) < ⊤)) = 1#1 := by rw [← ofBits_inf]; exact h
    by_contra hn
    rw [decide_eq_false hn] at e
    exact absurd e (by decide)
  induction x using EReal.rec with
  | bot => simp at h'
  | top => simp at h'
  | coe r => exact ⟨r, rfl⟩

/-- THE PRECONDITION GIVES FINITENESS of the activations and of the weights. -/
theorem real_of_pre (x0 : FVec Ideal S8x8192x1024 .f32) (x1 : FVec Ideal S2048x1024 .f32) (x2 : FVec Ideal S2048 .f32)
    (h : fn (F := Ideal) x0 x1 x2 = fun _ => 1#1) :
    (∀ i, ∃ r : ℝ, x0 i = (r : EReal)) ∧ (∀ i, ∃ r : ℝ, x1 i = (r : EReal)) := by
  have h0 := congrFun h ix0
  dsimp only [fn] at h0
  obtain ⟨h38, -⟩ := IntOp.andi_eq_one.1 h0
  obtain ⟨h3, h7⟩ := IntOp.andi_eq_one.1 h38
  refine ⟨fun i => ?_, fun i => ?_⟩
  · have e := Host.reduce_andi_all _ _ _ _ _ h3 i
    exact real_of_abs_lt _ e
  · have e := Host.reduce_andi_all _ _ _ _ _ h7 i
    exact real_of_abs_lt _ e

end Cert.Pre_finite_inputs.Finite

end
-- ==== Proof.lean ====
/-
  A linear layer over per-row int8 fake-quantized activations and weights: the Pallas kernel against its jnp reference,
  equal as extended reals under finite inputs.

  Both programs send each activation row and each weight row `r` to `clamp (round (r / s)) · s` with
  `s = max (max |r| / 127) ε`, contract the two dequantized arrays over their last axes and add the bias
  (`FakeQuant.G`, Proof/FakeQuantSpec.lean). They differ in three ways, none of which changes the value on the
  extended reals:
  • the kernel works on the activations reshaped to `[65536, 1024]`, 512 rows per grid point, and reshapes its
    `[65536, 2048]` result back: the blocks tile the array, and row `8192 p + r` is row `(p, r, ·)`
    (Proof/KernelValue.lean, over the body's result read at an index in Proof/KernelPayload.lean);
  • the kernel's product is a `tpu.matmul` of the bf16-truncated operands into a zero accumulator, the reference's a
    `dot_general`: both are the sum over `k` of the products, a change of float format being the identity;
  • the reference passes `x + (q - x)` on where the kernel passes the dequantized `q`: for a real `x` these are
    equal whatever `q` is (`FakeQuant.ste_of_real`) — the one place the precondition is used, through
    Proof/FiniteInputs.lean (Proof/RefValue.lean reads the reference index by index).
  The three frames are the generated ones (the reference's is its generated run with the result dropped); the ideal
  pass rewrote nothing, so `preserves` is trivial.
-/
import proofs.«178201_j74517682586279_1_alg».proof.Defs
import proofs.«178201_j74517682586279_1_alg».proof.Proof.Gen.Kernel
import proofs.«178201_j74517682586279_1_alg».proof.Proof.Gen.Kernel.Skeleton
import proofs.«178201_j74517682586279_1_alg».proof.Proof.Gen.Kernel.Launch
import proofs.«178201_j74517682586279_1_alg».proof.Proof.Gen.Kernel.Points
import proofs.«178201_j74517682586279_1_alg».proof.Proof.Gen.Kernel.Frame
import proofs.«178201_j74517682586279_1_alg».proof.Proof.Gen.KernelIdeal
import proofs.«178201_j74517682586279_1_alg».proof.Proof.Gen.KernelIdeal.Skeleton
import proofs.«178201_j74517682586279_1_alg».proof.Proof.Gen.KernelIdeal.Launch
import proofs.«178201_j74517682586279_1_alg».proof.Proof.Gen.KernelIdeal.Points
import proofs.«178201_j74517682586279_1_alg».proof.Proof.Gen.KernelIdeal.Frame
import proofs.«178201_j74517682586279_1_alg».proof.Proof.Gen.ReferenceIdeal
import proofs.«178201_j74517682586279_1_alg».proof.Proof.Gen.Pre_finite_inputs
import proofs.«178201_j74517682586279_1_alg».proof.Proof.Gen.ReferenceIdeal.Run
import proofs.«178201_j74517682586279_1_alg».proof.Proof.Gen.ReferenceIdeal.Read
import proofs.«178201_j74517682586279_1_alg».proof.Proof.KernelValue
import proofs.«178201_j74517682586279_1_alg».proof.Proof.RefValue
import proofs.«178201_j74517682586279_1_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs end with the result at `FakeQuant.G` of the arguments: the kernel by its run read
    block by block, the reference by its run read index by index, the straight-through step dropping out because the
    precondition makes the activations and the weights real. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx0, hx1⟩ := Cert.Pre_finite_inputs.Finite.real_of_pre _ _ _ (hpre c)
  refine (Cert.ReferenceIdeal.Read.val_main_v33_eq _ _ _).trans ?_
  rw [(hagree c).1, (hagree c).2.1, (hagree c).2.2]
  exact Cert.ReferenceIdeal.RefValue.result_eq _ _ _ hx0 hx1

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
